-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel

variable [Facts]

def fn {F : FTy → Type} [FloatOps F] (main_arg0 : FVec F S16x2048x1024 .f32) (main_arg1 : FVec F S16x2048x1024 .f32) (main_arg2 : FVec F S16x2048x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  main_v13
-- ==== Kernel.lean ====
abbrev S16x2048x1024 : Shape := ⟨3, ![16, 2048, 1024]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .bf16⟩
  | .hbm, ⟨4, _⟩ => ⟨S16x2048x1024, .f32⟩
  | .hbm, ⟨5, _⟩ => ⟨S16x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x256x2048, .f32⟩
  | .local _ .vmem, ⟨8, _⟩ => ⟨S1x256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x1024.size a
  hwx0_2 : ∀ i : grid0.Coords, EltTy.bits .bf16 = 32 ∨ (Rect.block (s := S16x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x2048x1024.size a
  hwx0_3 : ∀ i : grid0.Coords, EltTy.bits .f32 = 32 ∨ (Rect.block (s := S16x2048x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x2048x2048.size a
  hwx0_4 : ∀ i : grid0.Coords, EltTy.bits .f32 = 32 ∨ (Rect.block (s := S16x2048x2048) S1x256x2048.size (cc0_transform_4 i) (hinb0_4 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048x1, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Layout.lean ====
/-
  Two re-layings of a column of per-row scalars, read at an index.

  A softmax keeps one scalar per row (the row's maximum, the row's normaliser). The body holds it as a
  vector of length `a`, re-lays it as an `[a, 1]` column, and spreads the column over the `b` entries of each
  row. Read at `(i, c)` the spread column is the scalar of row `i`, whatever `c`.
-/
import Idealize.ShloMosaic.Lib.Pipeline.Value
import Idealize.ShloMosaic.Lib.ValueIdx
import Idealize.ShloMosaic.Lib.ValueLayout

namespace Cert.Attn.Layout

open Idealize.ShloMosaic Idealize.ShloMosaic.ValueIdx

variable {α : Type}

/-- An `[a]` vector re-laid as an `[a, 1]` column reads, at `(i, u)`, the vector at `i`: both have row-major
    position `i`, the unit coordinate `u` being `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `[a, b]` reads, at `(p, c)`, the column's entry of row `p`: the row coordinate is
    kept (or is `0` anyway when there is only one row), the unit axis is read at `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Softmax.lean ====
/-
  The specification: unscaled softmax attention on the extended reals, one query row at a time.

  For a query row `Q : Fin D → EReal`, a key matrix `K : Fin n → Fin D → EReal` and a value matrix
  `Vm : Fin n → Fin E → EReal`:
    score j   = ∑ d, Q d · K j d                      (the logit against key j)
    rowMax    = the maximum of the scores, starting from the least value
    expo j    = exp (score j − rowMax)
    denom     = ∑ j, expo j
    weight j  = expo j / denom
    context e = ∑ j, weight j · Vm j e
  Both programs compute exactly these, the kernel one tile of 256 query rows at a time and the reference on the
  whole batch; nothing here needs the inputs finite, because the only laws used between the two are that a
  maximum and a sum do not depend on the order they are taken in.

  The maximum is a fold of `max` from a starting value `c`. Taking `max c` of the result once more changes
  nothing (`max_fold_max_self`): the fold already dominates `c`. That is how the reference's extra
  `maximum(−∞, ·)` disappears, without ever evaluating the bit pattern of `−∞`.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- The value both programs start a row's maximum from: the f32 pattern of `−∞`, kept as its word. -/
abbrev least : EReal := Ideal.ofBits .f32 0xFF800000#32

variable {n D E : ℕ}

/-- The logit of the query row against key `j`. -/
def score (Q : Fin D → EReal) (K : Fin n → Fin D → EReal) (j : Fin n) : EReal := ∑ d : Fin D, Q d * K j d

/-- The largest logit of the row (from `least`). -/
def rowMax (Q : Fin D → EReal) (K : Fin n → Fin D → EReal) : EReal :=
  (Finset.univ : Finset (Fin n)).fold max least (score Q K)

/-- The shifted exponential of logit `j`. -/
def expo (Q : Fin D → EReal) (K : Fin n → Fin D → EReal) (j : Fin n) : EReal := Ideal.exp (score Q K j - rowMax Q K)

/-- The row's normaliser. -/
def denom (Q : Fin D → EReal) (K : Fin n → Fin D → EReal) : EReal := ∑ j : Fin n, expo Q K j

/-- The attention weight of key `j` for this query row. -/
def weight (Q : Fin D → EReal) (K : Fin n → Fin D → EReal) (j : Fin n) : EReal := Ideal.div (expo Q K j) (denom Q K)

/-- The attended value, coordinate `e`. -/
def context (Q : Fin D → EReal) (K : Fin n → Fin D → EReal) (Vm : Fin n → Fin E → EReal) (e : Fin E) : EReal :=
  ∑ j : Fin n, weight Q K j * Vm j e

/-- A fold of `max` from `c` dominates `c`, so one more `max c` in front is absorbed. -/
theorem max_fold_max_self {ι : Type} (s : Finset ι) (c : EReal) (f : ι → EReal) :
    max c (s.fold max c f) = s.fold max c f :=
  max_eq_right ((Finset.le_fold_max c).mpr (Or.inl le_rfl))

/-! ## The two result arrays, index by index -/

/-- The weight array `[16, 2048, 2048]` at batch `b`, query `i`, key `j`. -/
def weightAt (q k : (⟨3, ![16, 2048, 1024]⟩ : Shape).Idx → EReal) (b : Fin 16) (i j : Fin 2048) : EReal :=
  weight (fun d : Fin 1024 => q (ix3 b i d)) (fun (j' : Fin 2048) (d : Fin 1024) => k (ix3 b j' d)) j

/-- The context array `[16, 2048, 1024]` at batch `b`, query `i`, coordinate `e`. -/
def contextAt (q k v : (⟨3, ![16, 2048, 1024]⟩ : Shape).Idx → EReal) (b : Fin 16) (i : Fin 2048) (e : Fin 1024) : EReal :=
  context (fun d : Fin 1024 => q (ix3 b i d)) (fun (j' : Fin 2048) (d : Fin 1024) => k (ix3 b j' d))
    (fun (j' : Fin 2048) (e' : Fin 1024) => v (ix3 b j' e')) e

/-- The weights as one array. -/
def W (q k : (⟨3, ![16, 2048, 1024]⟩ : Shape).Idx → EReal) : (⟨3, ![16, 2048, 2048]⟩ : Shape).Idx → EReal :=
  fun x => weightAt q k (x 0) (x 1) (x 2)

/-- The contexts as one array. -/
def C (q k v : (⟨3, ![16, 2048, 1024]⟩ : Shape).Idx → EReal) : (⟨3, ![16, 2048, 1024]⟩ : Shape).Idx → EReal :=
  fun x => contextAt q k v (x 0) (x 1) (x 2)

end Cert.Attn

end
-- ==== Proof.Tile.lean ====
/-
  One tile of the kernel, read at an index.

  At a grid point the body holds 256 query rows `P0` (as a `[1, 256, 1024]` block), the batch's 2048 key rows `P1`
  and its 2048 value rows `P2` (`[1, 2048, 1024]` blocks). It forms the 256 × 2048 logits by one matrix product
  into a zero accumulator, takes each row's maximum and spreads it back over the row, exponentiates the shifted
  logits, takes each row's sum and spreads it back, divides, and multiplies the weights into the value rows by a
  second matrix product into a zero accumulator (the narrowing of the weights to bf16 in between is the identity on
  the extended reals).

  Each of those steps is read here at an index `(p, j)` of the tile, over arbitrary vectors of the tile's shapes:
  a matrix product into zero is the plain sum over the contracted coordinate; a row maximum spread over the row is
  the fold of `max` over the row's entries; a row sum spread over the row is the sum of the row's entries. Put
  together, the weight the body stores at `(p, j)` is `Attn.weight` of query row `p` against the key rows, at `j`, and
  the context it stores at `(p, e)` is `Attn.context` of the same row, at `e`.
-/
import proofs.«169321_j67542655697644_2_alg».proof.Proof.Gen.KernelIdeal.Skeleton
import proofs.«169321_j67542655697644_2_alg».proof.Proof.Layout
import proofs.«169321_j67542655697644_2_alg».proof.Proof.Softmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.Attn Cert.Attn.Layout

/-! ## The operand indices of the two matrix products

The first product contracts the last axis of both operands (queries × keys, both `[rows, 1024]`); the second
contracts the weights' last axis with the value rows' first. -/

theorem qk_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem qk_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem qk_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem qk_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

theorem wv_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem wv_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem wv_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem wv_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-! ## The steps of the tile -/

/-- The logits of the tile: queries times keys, into zero. -/
def logits (P0 : Vec Ideal S1x256x1024 .f32) (P1 : Vec Ideal S1x2048x1024 .f32) : FVec Ideal S256x2048 .f32 :=
  matmul (φ₁ := .f32) (φ₂ := .f32) dot_S256x1024_S2048x1024_S256x2048_1_1_0_0_n_n (some .fp32) (shapeCast S256x1024 P0 shapeCasts_S1x256x1024_S256x1024)
    (shapeCast S2048x1024 P1 shapeCasts_S1x2048x1024_S2048x1024) (constant (F := Ideal) S256x2048 .f32 0x00000000#32)

/-- A tile with each row's maximum subtracted, exponentiated. -/
def shifted (s : FVec Ideal S256x2048 .f32) : FVec Ideal S256x2048 .f32 :=
  exp (subf s (broadcastTo S256x2048 (shapeCast S256x1 (multiReduction .maximumf [1] S256 s 0xFF800000#32 reduces_S256x2048_S256 (.inl rfl) rfl) shapeCasts_S256_S256x1) broadcasts_S256x1_S256x2048))

/-- A tile divided, row by row, by the row's sum. -/
def normalised (x : FVec Ideal S256x2048 .f32) : FVec Ideal S256x2048 .f32 :=
  divf x (broadcastTo S256x2048 (shapeCast S256x1 (multiReduction .add [1] S256 x 0x00000000#32 reduces_S256x2048_S256 (.inl rfl) rfl) shapeCasts_S256_S256x1) broadcasts_S256x1_S256x2048)

/-- The weights the body computes are these three steps, one after the other. -/
theorem pay1_eq (P0 : Vec Ideal S1x256x1024 .f32) (P1 : Vec Ideal S1x2048x1024 .f32) :
    k0_pay1 (F := Ideal) P0 P1 = normalised (shifted (logits P0 P1)) := rfl

/-- The logit at `(p, j)`: query row `p` against key row `j`, summed over the 1024 coordinates. -/
theorem logits_apply (P0 : Vec Ideal S1x256x1024 .f32) (P1 : Vec Ideal S1x2048x1024 .f32) (p : Fin 256) (j : Fin 2048) :
    logits P0 P1 (ix2 p j) = score (fun d : Fin 1024 => P0 (ix3 (0 : Fin 1) p d)) (fun (j' : Fin 2048) (d : Fin 1024) => P1 (ix3 (0 : Fin 1) j' d)) j := by
  unfold logits score
  refine (Ideal.matmul_constant_zero_apply (φ₁ := .f32) (φ₂ := .f32) dot_S256x1024_S2048x1024_S256x2048_1_1_0_0_n_n (some .fp32) _ _ (ix2 p j)).trans ?_
  rw [← Equiv.sum_comp (contrEquiv1 dot_S256x1024_S2048x1024_S256x2048_1_1_0_0_n_n 1024 rfl rfl).symm]
  refine Finset.sum_congr rfl fun d _ => ?_
  have hk := contrEquiv1_symm_val dot_S256x1024_S2048x1024_S256x2048_1_1_0_0_n_n 1024 rfl rfl d
  have el : dot_S256x1024_S2048x1024_S256x2048_1_1_0_0_n_n.lhsIdx (ix2 p j) ((contrEquiv1 dot_S256x1024_S2048x1024_S256x2048_1_1_0_0_n_n 1024 rfl rfl).symm d) = ix2 p d := funext fun a => Fin.ext (by
    match a with
    | ⟨0, _⟩ => exact qk_lhs_0 _ _
    | ⟨1, _⟩ => exact (qk_lhs_1 _ _).trans hk)
  have er : dot_S256x1024_S2048x1024_S256x2048_1_1_0_0_n_n.rhsIdx (ix2 p j) ((contrEquiv1 dot_S256x1024_S2048x1024_S256x2048_1_1_0_0_n_n 1024 rfl rfl).symm d) = ix2 j d := funext fun a => Fin.ext (by
    match a with
    | ⟨0, _⟩ => exact qk_rhs_0 _ _
    | ⟨1, _⟩ => exact (qk_rhs_1 _ _).trans hk)
  rw [el, er]
  exact congrArg₂ (· * ·) (shapeCast_1ab_ab_apply P0 _ p d) (shapeCast_1ab_ab_apply P1 _ j d)

/-- A tile's row maxima, spread back over the rows, read at `(p, c)`: the fold of `max` over row `p`. -/
theorem rowMax_spread_apply (s : FVec Ideal S256x2048 .f32) (p : Fin 256) (c : Fin 2048) :
    (broadcastTo S256x2048 (shapeCast S256x1 (multiReduction .maximumf [1] S256 s 0xFF800000#32 reduces_S256x2048_S256 (.inl rfl) rfl) shapeCasts_S256_S256x1) broadcasts_S256x1_S256x2048) (ix2 p c) = (Finset.univ : Finset (Fin 2048)).fold max least (fun j => s (ix2 p j)) := by
  refine (broadcastTo_a1_ab_apply _ broadcasts_S256x1_S256x2048 p c).trans ?_
  refine (shapeCast_a_a1_apply _ shapeCasts_S256_S256x1 p (0 : Fin 1)).trans ?_
  refine (Ideal.multiReduction_maximumf_single s 0xFF800000#32 reduces_S256x2048_S256 _ _ (ix1 p)).trans ?_
  exact congrArg (fun f => Finset.fold max least f (Finset.univ : Finset (Fin 2048)))
    (funext fun k => congrArg s (funext fun a => Fin.ext (by match a with | ⟨0, _⟩ => rfl | ⟨1, _⟩ => rfl)))

/-- A tile's row sums, spread back over the rows, read at `(p, c)`: the sum of row `p`. -/
theorem rowSum_spread_apply (x : FVec Ideal S256x2048 .f32) (p : Fin 256) (c : Fin 2048) :
    (broadcastTo S256x2048 (shapeCast S256x1 (multiReduction .add [1] S256 x 0x00000000#32 reduces_S256x2048_S256 (.inl rfl) rfl) shapeCasts_S256_S256x1) broadcasts_S256x1_S256x2048) (ix2 p c) = ∑ j : Fin 2048, x (ix2 p j) := by
  refine (broadcastTo_a1_ab_apply _ broadcasts_S256x1_S256x2048 p c).trans ?_
  refine (shapeCast_a_a1_apply _ shapeCasts_S256_S256x1 p (0 : Fin 1)).trans ?_
  refine (Ideal.multiReduction_add_single x 0x00000000#32 reduces_S256x2048_S256 _ _ (ix1 p)).trans ?_
  exact Finset.sum_congr rfl fun k _ =>
    congrArg x (funext fun a => Fin.ext (by match a with | ⟨0, _⟩ => rfl | ⟨1, _⟩ => rfl))

theorem shifted_apply (s : FVec Ideal S256x2048 .f32) (p : Fin 256) (j : Fin 2048) :
    shifted s (ix2 p j) = Ideal.exp (s (ix2 p j) - (Finset.univ : Finset (Fin 2048)).fold max least (fun j' => s (ix2 p j'))) := by
  unfold shifted
  exact congrArg (fun z => Ideal.exp (s (ix2 p j) - z)) (rowMax_spread_apply s p j)

theorem normalised_apply (x : FVec Ideal S256x2048 .f32) (p : Fin 256) (j : Fin 2048) :
    normalised x (ix2 p j) = Ideal.div (x (ix2 p j)) (∑ j' : Fin 2048, x (ix2 p j')) := by
  unfold normalised
  exact congrArg (fun z => Ideal.div (x (ix2 p j)) z) (rowSum_spread_apply x p j)

/-- THE WEIGHT THE BODY STORES at `(p, j)` is the specification's weight of query row `p` for key `j`. -/
theorem pay1_apply (P0 : Vec Ideal S1x256x1024 .f32) (P1 : Vec Ideal S1x2048x1024 .f32) (p : Fin 256) (j : Fin 2048) :
    k0_pay1 (F := Ideal) P0 P1 (ix2 p j) = weight (fun d : Fin 1024 => P0 (ix3 (0 : Fin 1) p d)) (fun (j' : Fin 2048) (d : Fin 1024) => P1 (ix3 (0 : Fin 1) j' d)) j := by
  rw [pay1_eq, normalised_apply]
  simp only [shifted_apply, logits_apply]
  rfl

/-- The second product at `(p, e)`: row `p` of the weights against column `e` of the value rows. -/
theorem weighted_apply (w : FVec Ideal S256x2048 .f32) (P2 : Vec Ideal S1x2048x1024 .bf16) (p : Fin 256) (e : Fin 1024) :
    matmul (φ₁ := .bf16) (φ₂ := .bf16) dot_S256x2048_S2048x1024_S256x1024_1_0_0_1_n_n none (truncf .bf16 w bitsLt_bf16_f32) (shapeCast S2048x1024 P2 shapeCasts_S1x2048x1024_S2048x1024)
      (constant (F := Ideal) S256x1024 .f32 0x00000000#32) (ix2 p e)
      = ∑ j : Fin 2048, w (ix2 p j) * P2 (ix3 (0 : Fin 1) j e) := by
  refine (Ideal.matmul_constant_zero_apply (φ₁ := .bf16) (φ₂ := .bf16) dot_S256x2048_S2048x1024_S256x1024_1_0_0_1_n_n none _ _ (ix2 p e)).trans ?_
  rw [← Equiv.sum_comp (contrEquiv1 dot_S256x2048_S2048x1024_S256x1024_1_0_0_1_n_n 2048 rfl rfl).symm]
  refine Finset.sum_congr rfl fun j _ => ?_
  have hk := contrEquiv1_symm_val dot_S256x2048_S2048x1024_S256x1024_1_0_0_1_n_n 2048 rfl rfl j
  have el : dot_S256x2048_S2048x1024_S256x1024_1_0_0_1_n_n.lhsIdx (ix2 p e) ((contrEquiv1 dot_S256x2048_S2048x1024_S256x1024_1_0_0_1_n_n 2048 rfl rfl).symm j) = ix2 p j := funext fun a => Fin.ext (by
    match a with
    | ⟨0, _⟩ => exact wv_lhs_0 _ _
    | ⟨1, _⟩ => exact (wv_lhs_1 _ _).trans hk)
  have er : dot_S256x2048_S2048x1024_S256x1024_1_0_0_1_n_n.rhsIdx (ix2 p e) ((contrEquiv1 dot_S256x2048_S2048x1024_S256x1024_1_0_0_1_n_n 2048 rfl rfl).symm j) = ix2 j e := funext fun a => Fin.ext (by
    match a with
    | ⟨0, _⟩ => exact (wv_rhs_0 _ _).trans hk
    | ⟨1, _⟩ => exact wv_rhs_1 _ _)
  rw [el, er]
  exact congrArg (w (ix2 p j) * ·) (shapeCast_1ab_ab_apply P2 _ j e)

/-- The context the body computes: the second product of the weights, re-laid with a leading unit axis. -/
theorem pay3_eq (P0 : Vec Ideal S1x256x1024 .f32) (P1 : Vec Ideal S1x2048x1024 .f32) (P2 : Vec Ideal S1x2048x1024 .bf16) :
    k0_pay3 (F := Ideal) P0 P1 P2 = shapeCast S1x256x1024 (matmul (φ₁ := .bf16) (φ₂ := .bf16) dot_S256x2048_S2048x1024_S256x1024_1_0_0_1_n_n none (truncf .bf16 (k0_pay1 (F := Ideal) P0 P1) bitsLt_bf16_f32)
      (shapeCast S2048x1024 P2 shapeCasts_S1x2048x1024_S2048x1024) (constant (F := Ideal) S256x1024 .f32 0x00000000#32)) shapeCasts_S256x1024_S1x256x1024 := rfl

/-- THE CONTEXT THE BODY STORES at `(0, p, e)` is the specification's context of query row `p`, coordinate `e`. -/
theorem pay3_apply (P0 : Vec Ideal S1x256x1024 .f32) (P1 : Vec Ideal S1x2048x1024 .f32) (P2 : Vec Ideal S1x2048x1024 .bf16)
    (u : Fin 1) (p : Fin 256) (e : Fin 1024) :
    k0_pay3 (F := Ideal) P0 P1 P2 (ix3 u p e) = context (fun d : Fin 1024 => P0 (ix3 (0 : Fin 1) p d)) (fun (j' : Fin 2048) (d : Fin 1024) => P1 (ix3 (0 : Fin 1) j' d)) (fun (j' : Fin 2048) (e' : Fin 1024) => P2 (ix3 (0 : Fin 1) j' e')) e := by
  rw [pay3_eq]
  refine (shapeCast_ab_1ab_apply _ shapeCasts_S256x1024_S1x256x1024 u p e).trans ?_
  refine (weighted_apply (k0_pay1 (F := Ideal) P0 P1) P2 p e).trans ?_
  unfold context
  exact Finset.sum_congr rfl fun j _ => congrArg (· * P2 (ix3 (0 : Fin 1) j e)) (pay1_apply P0 P1 p j)

/-- The weight block the body stores, at `(u, p, j)` of the `[1, 256, 2048]` staging buffer. -/
theorem pay2_apply (P0 : Vec Ideal S1x256x1024 .f32) (P1 : Vec Ideal S1x2048x1024 .f32) (u : Fin 1) (p : Fin 256) (j : Fin 2048) :
    k0_pay2 (F := Ideal) P0 P1 (ix3 u p j) = weight (fun d : Fin 1024 => P0 (ix3 (0 : Fin 1) p d)) (fun (j' : Fin 2048) (d : Fin 1024) => P1 (ix3 (0 : Fin 1) j' d)) j := by
  show shapeCast S1x256x2048 (k0_pay1 (F := Ideal) P0 P1) shapeCasts_S256x2048_S1x256x2048 (ix3 u p j) = _
  exact (shapeCast_ab_1ab_apply _ shapeCasts_S256x2048_S1x256x2048 u p j).trans (pay1_apply P0 P1 p j)

end Cert.KernelIdeal.Tile

end
-- ==== Proof.Blocks.lean ====
/-
  From the tiles to the two result arrays.

  The grid has 16 × 8 points; point `(b, r)` reads query rows `256 r … 256 r + 255` of batch `b`, all 2048 key rows
  and all 2048 value rows of batch `b`, and writes back rows `256 r … 256 r + 255` of batch `b` of both results. An
  element of a block sits in its array at (block index) × (block size) + (its coordinate in the block), axis by axis;
  the relations between the five windows' block indices are decided once over the 128 points. With them, what a point
  writes back is the matching block of the specification's arrays `W` and `C` of the argument arrays, the blocks
  cover both results (row `i` of batch `b` belongs to point `(b, i / 256)`), and so both results end as `W` and `C`.

  The value rows reach the region through a host narrowing to bf16, which is the identity on the extended reals:
  the region finds the argument array itself.
-/
import proofs.«169321_j67542655697644_2_alg».proof.Proof.Gen.KernelIdeal.Value
import proofs.«169321_j67542655697644_2_alg».proof.Proof.Tile
import Idealize.ShloMosaic.Lib.StableHlo.Run
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## One tile against the arrays, over variables -/

/-- If the query block `B0` holds row `x 1` of batch `x 0` at its row `y 1`, and the key block `B1` holds the key rows of
    batch `x 0`, then the weight the body stores at `y` is the specification's weight at `x` (same key coordinate). -/
theorem weight_block_eq (q k : S16x2048x1024.Idx → EReal) (B0 : Vec Ideal S1x256x1024 .f32) (B1 : Vec Ideal S1x2048x1024 .f32)
    (y : S1x256x2048.Idx) (x : S16x2048x2048.Idx)
    (h0 : ∀ d : Fin 1024, B0 (ix3 (0 : Fin 1) (y 1) d) = q (ix3 (x 0) (x 1) d))
    (h1 : ∀ (j' : Fin 2048) (d : Fin 1024), B1 (ix3 (0 : Fin 1) j' d) = k (ix3 (x 0) j' d))
    (h2 : (y 2).val = (x 2).val) :
    k0_pay2 (F := Ideal) B0 B1 y = W q k x := by
  obtain ⟨u, p, j, rfl⟩ : ∃ (u : Fin 1) (p : Fin 256) (j : Fin 2048), y = ix3 u p j := ⟨y 0, y 1, y 2, eq_ix3 y⟩
  refine (Tile.pay2_apply B0 B1 u p j).trans ?_
  have hj : j = x 2 := Fin.ext h2
  subst hj
  exact congrArg₂ (fun Q K => weight Q K (x 2)) (funext h0) (funext fun j' => funext (h1 j'))

/-- The same for the context, with the value block `B2` holding the value rows of batch `x 0`. -/
theorem context_block_eq (q k v : S16x2048x1024.Idx → EReal) (B0 : Vec Ideal S1x256x1024 .f32) (B1 : Vec Ideal S1x2048x1024 .f32)
    (B2 : Vec Ideal S1x2048x1024 .bf16) (y : S1x256x1024.Idx) (x : S16x2048x1024.Idx)
    (h0 : ∀ d : Fin 1024, B0 (ix3 (0 : Fin 1) (y 1) d) = q (ix3 (x 0) (x 1) d))
    (h1 : ∀ (j' : Fin 2048) (d : Fin 1024), B1 (ix3 (0 : Fin 1) j' d) = k (ix3 (x 0) j' d))
    (h2 : ∀ (j' : Fin 2048) (e' : Fin 1024), B2 (ix3 (0 : Fin 1) j' e') = v (ix3 (x 0) j' e'))
    (h3 : (y 2).val = (x 2).val) :
    k0_pay3 (F := Ideal) B0 B1 B2 y = C q k v x := by
  obtain ⟨u, p, e, rfl⟩ : ∃ (u : Fin 1) (p : Fin 256) (e : Fin 1024), y = ix3 u p e := ⟨y 0, y 1, y 2, eq_ix3 y⟩
  refine (Tile.pay3_apply B0 B1 B2 u p e).trans ?_
  have he : e = x 2 := Fin.ext h3
  subst he
  have eQ : (fun d : Fin 1024 => B0 (ix3 (0 : Fin 1) p d)) = (fun d : Fin 1024 => q (ix3 (x 0) (x 1) d)) := funext h0
  have eK : (fun (j' : Fin 2048) (d : Fin 1024) => B1 (ix3 (0 : Fin 1) j' d)) = (fun (j' : Fin 2048) (d : Fin 1024) => k (ix3 (x 0) j' d)) :=
    funext fun j' => funext (h1 j')
  have eV : (fun (j' : Fin 2048) (e' : Fin 1024) => B2 (ix3 (0 : Fin 1) j' e')) = (fun (j' : Fin 2048) (e' : Fin 1024) => v (ix3 (x 0) j' e')) :=
    funext fun j' => funext (h2 j')
  rw [eQ, eK, eV]
  rfl

/-! ## The windows' block indices, decided over the grid -/

/-- The query, context and weight windows move together over both grid axes and stay at block 0 of the last axis; the
    key and value windows follow the batch axis only; there are 16 batches and 8 row blocks. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0
    ∧ win0_4.index t (0 : Fin 3) ≤ 15 ∧ win0_4.index t (1 : Fin 3) ≤ 7 :=
  (by decide +kernel : ∀ t : Fin grid0.N, _)

/-- Every (batch, row block) pair is some point's. -/
theorem idx_onto : ∀ (q0 : Fin 16) (q1 : Fin 8), ∃ t : Fin cfg0.N, win0_4.index t = ![q0.val, q1.val, 0] :=
  (by decide +kernel : ∀ (q0 : Fin 16) (q1 : Fin 8), ∃ t : Fin grid0.N, win0_4.index t = ![q0.val, q1.val, 0])

/-! ## The input blocks, read off the argument arrays -/

/-- The region finds the value rows as the argument array: the host's narrowing to bf16 is the identity here. -/
theorem V_values (c : Dev nD) :
    (V m c main_v0 : S16x2048x1024.Idx → EReal) = ((m ((c : Thread nD τ).loc main_arg2)) : S16x2048x1024.Idx → EReal) := by
  dsimp only [V, hostOps0]
  after_results
  rfl

theorem iblk0_apply (c : Dev nD) (t : Fin cfg0.N) (z : S1x256x1024.Idx) :
    iblk m c 0 t z = (m ((c : Thread nD τ).loc main_arg0)) (((cfg0.win 0).blk t).view.emb z) := by
  show V m c main_arg0 (((cfg0.win 0).blk t).view.emb z) = _
  exact congrFun (V_main_arg0 m c) _

theorem iblk1_apply (c : Dev nD) (t : Fin cfg0.N) (z : S1x2048x1024.Idx) :
    iblk m c 1 t z = (m ((c : Thread nD τ).loc main_arg1)) (((cfg0.win 1).blk t).view.emb z) := by
  show V m c main_arg1 (((cfg0.win 1).blk t).view.emb z) = _
  exact congrFun (V_main_arg1 m c) _

theorem iblk2_apply (c : Dev nD) (t : Fin cfg0.N) (z : S1x2048x1024.Idx) :
    iblk m c 2 t z = (m ((c : Thread nD τ).loc main_arg2)) (((cfg0.win 2).blk t).view.emb z) := by
  show V m c main_v0 (((cfg0.win 2).blk t).view.emb z) = _
  exact congrFun (V_values m c) _

/-! ## What a point writes back -/

/-- Point `t` writes back block `t` of the weights `W` of the argument arrays. -/
theorem flushed4_eq (c : Dev nD) (t : Fin cfg0.N) :
    (dats m 0 c).flushed 4 t = ((cfg0.win 4).blk t).view.read (Elt Ideal) (W (m ((c : Thread nD τ).loc main_arg0)) (m ((c : Thread nD τ).loc main_arg1))) := by
  rw [Value.flushed4]
  unfold out0_4
  rw [View.canon_unit_zero hz]
  simp only [View.ld_unit_zero (S := S1x256x1024) hz, View.ld_unit_zero (S := S1x2048x1024) hz]
  obtain ⟨e00, e01, e02, e10, e11, e12, e20, e21, e22, e30, e31, e32, e42, b0, b1⟩ := idx_facts t
  funext y
  have hy0 : (y 0).val < 1 := (y 0).isLt
  refine weight_block_eq (m ((c : Thread nD τ).loc main_arg0)) (m ((c : Thread nD τ).loc main_arg1)) (iblk m c 0 t) (iblk m c 1 t) y (((cfg0.win 4).blk t).view.emb y) ?_ ?_ ?_
  · intro d
    refine (iblk0_apply m c t _).trans (congrArg _ (funext fun a => Fin.ext ?_))
    match a with
    | ⟨0, _⟩ => show win0_0.index t (0 : Fin 3) * 1 + 1 * 0 = win0_4.index t (0 : Fin 3) * 1 + 1 * (y 0).val; omega
    | ⟨1, _⟩ => show win0_0.index t (1 : Fin 3) * 256 + 1 * (y 1).val = win0_4.index t (1 : Fin 3) * 256 + 1 * (y 1).val; omega
    | ⟨2, _⟩ => show win0_0.index t (2 : Fin 3) * 1024 + 1 * d.val = d.val; omega
  · intro j' d
    refine (iblk1_apply m c t _).trans (congrArg _ (funext fun a => Fin.ext ?_))
    match a with
    | ⟨0, _⟩ => show win0_1.index t (0 : Fin 3) * 1 + 1 * 0 = win0_4.index t (0 : Fin 3) * 1 + 1 * (y 0).val; omega
    | ⟨1, _⟩ => show win0_1.index t (1 : Fin 3) * 2048 + 1 * j'.val = j'.val; omega
    | ⟨2, _⟩ => show win0_1.index t (2 : Fin 3) * 1024 + 1 * d.val = d.val; omega
  · show (y 2).val = win0_4.index t (2 : Fin 3) * 2048 + 1 * (y 2).val; omega

/-- Point `t` writes back block `t` of the contexts `C` of the argument arrays. -/
theorem flushed3_eq (c : Dev nD) (t : Fin cfg0.N) :
    (dats m 0 c).flushed 3 t = ((cfg0.win 3).blk t).view.read (Elt Ideal) (C (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S1x256x1024) hz, View.ld_unit_zero (S := S1x2048x1024) hz]
  obtain ⟨e00, e01, e02, e10, e11, e12, e20, e21, e22, e30, e31, e32, e42, b0, b1⟩ := idx_facts t
  funext y
  have hy0 : (y 0).val < 1 := (y 0).isLt
  refine context_block_eq (m ((c : Thread nD τ).loc main_arg0)) (m ((c : Thread nD τ).loc main_arg1)) (m ((c : Thread nD τ).loc main_arg2)) (iblk m c 0 t) (iblk m c 1 t) (iblk m c 2 t) y
    (((cfg0.win 3).blk t).view.emb y) ?_ ?_ ?_ ?_
  · intro d
    refine (iblk0_apply m c t _).trans (congrArg _ (funext fun a => Fin.ext ?_))
    match a with
    | ⟨0, _⟩ => show win0_0.index t (0 : Fin 3) * 1 + 1 * 0 = win0_3.index t (0 : Fin 3) * 1 + 1 * (y 0).val; omega
    | ⟨1, _⟩ => show win0_0.index t (1 : Fin 3) * 256 + 1 * (y 1).val = win0_3.index t (1 : Fin 3) * 256 + 1 * (y 1).val; omega
    | ⟨2, _⟩ => show win0_0.index t (2 : Fin 3) * 1024 + 1 * d.val = d.val; omega
  · intro j' d
    refine (iblk1_apply m c t _).trans (congrArg _ (funext fun a => Fin.ext ?_))
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j'.val = j'.val; omega
    | ⟨2, _⟩ => show win0_1.index t (2 : Fin 3) * 1024 + 1 * d.val = d.val; omega
  · intro j' e'
    refine (iblk2_apply m c t _).trans (congrArg _ (funext fun a => Fin.ext ?_))
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j'.val = j'.val; omega
    | ⟨2, _⟩ => show win0_2.index t (2 : Fin 3) * 1024 + 1 * e'.val = e'.val; omega
  · show (y 2).val = win0_3.index t (2 : Fin 3) * 1024 + 1 * (y 2).val; omega

/-! ## The blocks cover both results -/

theorem mem_blk4 (t : Fin cfg0.N) (i : S16x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v1_1).slice (win0_4.rect t)).set ↔ _
  rw [View.set_slice_whole, Rect.mem_set_unit]
  exact Iff.rfl

theorem mem_blk3 (t : Fin cfg0.N) (i : S16x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v1_0).slice (win0_3.rect t)).set ↔ _
  rw [View.set_slice_whole, Rect.mem_set_unit]
  exact Iff.rfl

/-- Row `i 1` of batch `i 0` of the weights lies in the block of the point whose block indices are `(i 0, i 1 / 256, 0)`. -/
theorem cover4 (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- The same for the contexts. -/
theorem cover3 (i : S16x2048x1024.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  obtain ⟨e00, e01, e02, e10, e11, e12, e20, e21, e22, e30, e31, e32, e42, b0, b1⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-! ## The two results after the run -/

theorem final4 (c : Dev nD) : (dats m 0 c).arrAt 4 cfg0.N = W (m ((c : Thread nD τ).loc main_arg0)) (m ((c : Thread nD τ).loc main_arg1)) :=
  (dats m 0 c).arrAt_eq_of_cover 4 (W (m ((c : Thread nD τ).loc main_arg0)) (m ((c : Thread nD τ).loc main_arg1))) (fun t _ => flushed4_eq m c t) cover4

theorem final3 (c : Dev nD) : (dats m 0 c).arrAt 3 cfg0.N = C (m ((c : Thread nD τ).loc main_arg0)) (m ((c : Thread nD τ).loc main_arg1)) (m ((c : Thread nD τ).loc main_arg2)) :=
  (dats m 0 c).arrAt_eq_of_cover 3 (C (m ((c : Thread nD τ).loc main_arg0)) (m ((c : Thread nD τ).loc main_arg1)) (m ((c : Thread nD τ).loc main_arg2))) (fun t _ => flushed3_eq m c t) cover3

/-- THE KERNEL'S RUN: every weakly fair execution ends with the contexts at `C` and the weights at `W` of the
    argument arrays, the arguments unchanged. -/
theorem run : θ_run defs (onTc (τ := τ) (main (F := Ideal))) ⟨m, fun _ => 0, ρ⟩ fun r => ∀ c : Dev nD,
      r.2.mem ((c : Thread nD τ).loc main_v1_0) = C (m ((c : Thread nD τ).loc main_arg0)) (m ((c : Thread nD τ).loc main_arg1)) (m ((c : Thread nD τ).loc main_arg2))
      ∧ r.2.mem ((c : Thread nD τ).loc main_v1_1) = W (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Blocks

end
-- ==== Proof.RefIsSpec.lean ====
/-
  The reference, stage by stage, is the specification.

  The reference forms all the logits of a batch by one batched product, reduces each row to its maximum (from −∞),
  takes the maximum of that with −∞ once more, subtracts it, exponentiates, sums each row (from 0), divides, and
  multiplies the weights into the value rows by a second batched product. Read at batch `b`, query `i`, key `j`:
  the logit is `Attn.score`, the reduced-then-clamped maximum is `Attn.rowMax` (the clamp is absorbed: a fold of
  `max` from −∞ already dominates −∞), the row sum from `0` is `Attn.denom`, the quotient `Attn.weight`, and the second
  product `Attn.context`.
-/
import proofs.«169321_j67542655697644_2_alg».proof.Proof.Gen.ReferenceIdeal.Read
import proofs.«169321_j67542655697644_2_alg».proof.Proof.Softmax
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S16x2048x1024, .f32⟩ : BufTy).Contents (Elt Ideal))

/-- The batched product at `(b, i, j)`: query row `i` of batch `b` against key row `j` of the same batch. -/
theorem logit_at (b : Fin 16) (i j : Fin 2048) :
    val_main_v0 (F := Ideal) x0 x1 (ix3 b i j) = score (fun d : Fin 1024 => x0 (ix3 b i d)) (fun (j' : Fin 2048) (d : Fin 1024) => x1 (ix3 b j' d)) j := by
  refine (val_main_v0_apply x0 x1 (ix3 b i j)).trans ?_
  unfold score
  exact Finset.sum_congr rfl fun k _ => congrArg₂ (· * ·) (congrArg x0 (funext fun a => Fin.ext (by match a with | ⟨0, _⟩ => rfl | ⟨1, _⟩ => rfl | ⟨2, _⟩ => rfl))) (congrArg x1 (funext fun a => Fin.ext (by match a with | ⟨0, _⟩ => rfl | ⟨1, _⟩ => rfl | ⟨2, _⟩ => rfl)))

/-- The row reduction at `(b, i)`: the fold of `max` from −∞ over the row's logits. -/
theorem reduced_at (b : Fin 16) (i : Fin 2048) :
    val_main_v1 (F := Ideal) x0 x1 (ix2 b i) = rowMax (fun d : Fin 1024 => x0 (ix3 b i d)) (fun (j' : Fin 2048) (d : Fin 1024) => x1 (ix3 b j' d)) := by
  unfold val_main_v1 rowMax
  have hR : S16x2048x2048.Reduces [(2 : Fin 3)] S16x2048 := by decide
  refine (Host.reduce_eq_fold_single (α := EReal) (s := S16x2048x2048) (t := S16x2048) (a := (2 : Fin 3))
    (FloatOps.maximumf (F := Ideal) (φ := .f32)) (val_main_v0 (F := Ideal) x0 x1) (val_main_cst (F := Ideal))
    reducesTo_S16x2048x2048_S16x2048_d2 hR h_S_ (ix2 b i)).trans ?_
  refine congrArg (fun f => Finset.fold max least f (Finset.univ : Finset (Fin 2048))) (funext fun k => ?_)
  exact (congrArg (val_main_v0 (F := Ideal) x0 x1) (funext fun a => Fin.ext (by match a with | ⟨0, _⟩ => rfl | ⟨1, _⟩ => rfl | ⟨2, _⟩ => rfl))).trans (logit_at x0 x1 b i k)

/-- … and the maximum of that with −∞ is the same number. -/
theorem rowmax_at (b : Fin 16) (i : Fin 2048) :
    val_main_v3 (F := Ideal) x0 x1 (ix2 b i) = rowMax (fun d : Fin 1024 => x0 (ix3 b i d)) (fun (j' : Fin 2048) (d : Fin 1024) => x1 (ix3 b j' d)) := by
  refine (val_main_v3_apply x0 x1 (ix2 b i)).trans ?_
  refine (congrArg (fun z => max (val_main_v2 (F := Ideal) (ix2 b i)) z) (reduced_at x0 x1 b i)).trans ?_
  exact max_fold_max_self (Finset.univ : Finset (Fin 2048)) least _

/-- The maximum spread back over the logits' shape. -/
theorem rowmax_spread_at (b : Fin 16) (i j : Fin 2048) :
    val_main_v5 (F := Ideal) x0 x1 (ix3 b i j) = rowMax (fun d : Fin 1024 => x0 (ix3 b i d)) (fun (j' : Fin 2048) (d : Fin 1024) => x1 (ix3 b j' d)) := by
  refine (val_main_v5_apply x0 x1 (ix3 b i j)).trans ?_
  refine (val_main_v4_apply x0 x1 _).trans ?_
  exact (congrArg (val_main_v3 (F := Ideal) x0 x1) (funext fun a => Fin.ext (by match a with | ⟨0, _⟩ => rfl | ⟨1, _⟩ => rfl))).trans (rowmax_at x0 x1 b i)

/-- The shifted exponential. -/
theorem expo_at (b : Fin 16) (i j : Fin 2048) :
    val_main_v7 (F := Ideal) x0 x1 (ix3 b i j) = expo (fun d : Fin 1024 => x0 (ix3 b i d)) (fun (j' : Fin 2048) (d : Fin 1024) => x1 (ix3 b j' d)) j := by
  refine (val_main_v7_apply x0 x1 (ix3 b i j)).trans ?_
  refine (congrArg Ideal.exp (val_main_v6_apply x0 x1 (ix3 b i j))).trans ?_
  unfold expo
  exact congrArg Ideal.exp (congrArg₂ (· - ·) (logit_at x0 x1 b i j) (rowmax_spread_at x0 x1 b i j))

/-- The row sum from zero. -/
theorem denom_at (b : Fin 16) (i : Fin 2048) :
    val_main_v8 (F := Ideal) x0 x1 (ix2 b i) = denom (fun d : Fin 1024 => x0 (ix3 b i d)) (fun (j' : Fin 2048) (d : Fin 1024) => x1 (ix3 b j' d)) := by
  refine (val_main_v8_apply x0 x1 (ix2 b i)).trans ?_
  unfold denom
  have h0 : val_main_cst_1 (F := Ideal) (Shape.Idx.first h_S_) = 0 := Ideal.ofBits_zero_f32
  refine (congrArg (· + _) h0).trans ((zero_add _).trans ?_)
  exact Finset.sum_congr rfl fun k _ => (congrArg (val_main_v7 (F := Ideal) x0 x1) (funext fun a => Fin.ext (by match a with | ⟨0, _⟩ => rfl | ⟨1, _⟩ => rfl | ⟨2, _⟩ => rfl))).trans (expo_at x0 x1 b i k)

/-- The row sum spread back over the logits' shape. -/
theorem denom_spread_at (b : Fin 16) (i j : Fin 2048) :
    val_main_v10 (F := Ideal) x0 x1 (ix3 b i j) = denom (fun d : Fin 1024 => x0 (ix3 b i d)) (fun (j' : Fin 2048) (d : Fin 1024) => x1 (ix3 b j' d)) := by
  refine (val_main_v10_apply x0 x1 (ix3 b i j)).trans ?_
  refine (val_main_v9_apply x0 x1 _).trans ?_
  exact (congrArg (val_main_v8 (F := Ideal) x0 x1) (funext fun a => Fin.ext (by match a with | ⟨0, _⟩ => rfl | ⟨1, _⟩ => rfl))).trans (denom_at x0 x1 b i)

/-- The weight. -/
theorem weight_at (b : Fin 16) (i j : Fin 2048) :
    val_main_v11 (F := Ideal) x0 x1 (ix3 b i j) = weightAt x0 x1 b i j := by
  refine (val_main_v11_apply x0 x1 (ix3 b i j)).trans ?_
  unfold weightAt weight
  exact congrArg₂ Ideal.div (expo_at x0 x1 b i j) (denom_spread_at x0 x1 b i j)

/-- The context. -/
theorem context_at (b : Fin 16) (i : Fin 2048) (e : Fin 1024) :
    val_main_v12 (F := Ideal) x0 x1 x2 (ix3 b i e) = contextAt x0 x1 x2 b i e := by
  refine (val_main_v12_apply x0 x1 x2 (ix3 b i e)).trans ?_
  unfold contextAt context
  exact Finset.sum_congr rfl fun k _ => congrArg₂ (· * ·)
    ((congrArg (val_main_v11 (F := Ideal) x0 x1) (funext fun a => Fin.ext (by match a with | ⟨0, _⟩ => rfl | ⟨1, _⟩ => rfl | ⟨2, _⟩ => rfl))).trans (weight_at x0 x1 b i k)) (congrArg x2 (funext fun a => Fin.ext (by match a with | ⟨0, _⟩ => rfl | ⟨1, _⟩ => rfl | ⟨2, _⟩ => rfl)))

/-- THE REFERENCE'S WEIGHTS are the specification's, as whole arrays. -/
theorem weights_eq : val_main_v11 (F := Ideal) x0 x1 = W x0 x1 := by
  funext x
  obtain ⟨b, i, j, rfl⟩ : ∃ (b : Fin 16) (i j : Fin 2048), x = ix3 b i j := ⟨x 0, x 1, x 2, eq_ix3 x⟩
  exact weight_at x0 x1 b i j

/-- THE REFERENCE'S CONTEXTS are the specification's, as whole arrays. -/
theorem contexts_eq : val_main_v12 (F := Ideal) x0 x1 x2 = C x0 x1 x2 := by
  funext x
  obtain ⟨b, i, e, rfl⟩ : ∃ (b : Fin 16) (i : Fin 2048) (e : Fin 1024), x = ix3 b i e := ⟨x 0, x 1, x 2, eq_ix3 x⟩
  exact context_at x0 x1 x2 b i e

end Cert.ReferenceIdeal.RefValue

end
-- ==== Proof.lean ====
/-
  Unscaled softmax attention: a tiled kernel against the whole-batch reference, equal on the extended reals.

  Both programs take queries, keys and values of shape [16, 2048, 1024] and return, per batch `b`,
      weight[b, i, j]  = exp (s[b,i,j] − max_j' s[b,i,j']) / ∑_j' exp (s[b,i,j'] − max_j'' s[b,i,j'']),
                          s[b,i,j] = ∑_d query[b,i,d] · key[b,j,d],
      context[b, i, e] = ∑_j weight[b,i,j] · value[b,j,e].
  The kernel works on 16 × 8 tiles of 256 query rows with the batch's keys and values resident; its two matrix
  products accumulate into zero, its row maximum starts from −∞ and its row sum from 0; the narrowing of the
  values and of the weights to bf16 is the identity on the extended reals. The reference computes the same
  quantities batch-wide, with one extra maximum against −∞ that a maximum started from −∞ absorbs.

  The two sides are joined only by the facts that a maximum and a sum over a row do not depend on the order they are
  taken in; no cancellation or distributivity is used, so the inputs' finiteness is never needed.

  `Softmax` states the formulas for one query row (`Attn.weight`, `Attn.context`) and the two result arrays (`Attn.W`,
  `Attn.C`); `Tile` reads one tile of the kernel at an index as those formulas; `Blocks` carries the tiles to the
  whole result arrays; `RefIsSpec` reads the reference stage by stage as the same arrays.
-/
import proofs.«169321_j67542655697644_2_alg».proof.Defs
import proofs.«169321_j67542655697644_2_alg».proof.Proof.Gen.Kernel
import proofs.«169321_j67542655697644_2_alg».proof.Proof.Gen.Kernel.Skeleton
import proofs.«169321_j67542655697644_2_alg».proof.Proof.Gen.Kernel.Launch
import proofs.«169321_j67542655697644_2_alg».proof.Proof.Gen.Kernel.Points
import proofs.«169321_j67542655697644_2_alg».proof.Proof.Gen.Kernel.Frame
import proofs.«169321_j67542655697644_2_alg».proof.Proof.Gen.KernelIdeal
import proofs.«169321_j67542655697644_2_alg».proof.Proof.Gen.KernelIdeal.Skeleton
import proofs.«169321_j67542655697644_2_alg».proof.Proof.Gen.KernelIdeal.Launch
import proofs.«169321_j67542655697644_2_alg».proof.Proof.Gen.KernelIdeal.Points
import proofs.«169321_j67542655697644_2_alg».proof.Proof.Gen.KernelIdeal.Frame
import proofs.«169321_j67542655697644_2_alg».proof.Proof.Gen.ReferenceIdeal
import proofs.«169321_j67542655697644_2_alg».proof.Proof.Gen.Pre_finite_inputs
import proofs.«169321_j67542655697644_2_alg».proof.Proof.Gen.KernelIdeal.Value
import proofs.«169321_j67542655697644_2_alg».proof.Proof.Gen.ReferenceIdeal.Run
import proofs.«169321_j67542655697644_2_alg».proof.Proof.Gen.ReferenceIdeal.Read
import proofs.«169321_j67542655697644_2_alg».proof.Proof.Blocks
import proofs.«169321_j67542655697644_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to restate. -/
theorem preserves : Cert.preserves_Kernel_KernelIdeal := trivial

/-- From memories that agree on the three arguments, the kernel ends with the contexts at `Attn.C` and the weights at
    `Attn.W` of its arguments (`Blocks.run`), and the reference ends with its two results at the same two arrays of the
    same arguments (`RefValue.contexts_eq`, `RefValue.weights_eq`). -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v12_eq, Cert.ReferenceIdeal.RefValue.contexts_eq, (hagree c).1, (hagree c).2.1, (hagree c).2.2]
  · rw [Cert.ReferenceIdeal.Read.val_main_v11_eq, Cert.ReferenceIdeal.RefValue.weights_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
